-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  reducesTo_S_S_d : S_.ReducesTo [] S_

variable [Facts]

def fn_part1 {F : FTy → Type} [FloatOps F] (main_arg6 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg6
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  main_v21

def fn {F : FTy → Type} [FloatOps F] (main_arg0 : FVec F S4x4096x4096 .f32) (main_arg1 : FVec F S4096x4096 .f32) (main_arg2 : FVec F S4096 .f32) (main_arg3 : IVec S16x4096 32) (main_arg4 : IVec S4096x16 32) (main_arg5 : FVec F S_ .f32) (main_arg6 : FVec F S_ .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg6 main_v13 main_v15 main_c_5
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S16384x4096 : Shape := ⟨2, ![16384, 4096]⟩
abbrev S16384x16 : Shape := ⟨2, ![16384, 16]⟩
abbrev S1x4096 : Shape := ⟨2, ![1, 4096]⟩
abbrev S1024x1024 : Shape := ⟨2, ![1024, 1024]⟩
abbrev S1x1024 : Shape := ⟨2, ![1, 1024]⟩
abbrev S1024x16 : Shape := ⟨2, ![1024, 16]⟩
abbrev S16x1024 : Shape := ⟨2, ![16, 1024]⟩

abbrev nBuf : Space → Nat
  | .hbm => 26
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .i32⟩
  | .hbm, ⟨4, _⟩ => ⟨S4096x16, .i32⟩
  | .hbm, ⟨5, _⟩ => ⟨S_, .f32⟩
  | .hbm, ⟨6, _⟩ => ⟨S_, .f32⟩
  | .hbm, ⟨7, _⟩ => ⟨S16384x4096, .f32⟩
  | .hbm, ⟨8, _⟩ => ⟨S16384x4096, .bf16⟩
  | .hbm, ⟨9, _⟩ => ⟨S4096x4096, .f32⟩
  | .hbm, ⟨10, _⟩ => ⟨S4096x4096, .bf16⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .bf16⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .bf16⟩
  | .hbm, ⟨19, _⟩ => ⟨S4096x16, .bf16⟩
  | .hbm, ⟨20, _⟩ => ⟨S16384x16, .f32⟩
  | .hbm, ⟨21, _⟩ => ⟨S16384x16, .bf16⟩
  | .hbm, ⟨22, _⟩ => ⟨S16x4096, .bf16⟩
  | .hbm, ⟨23, _⟩ => ⟨S1x4096, .f32⟩
  | .hbm, ⟨24, _⟩ => ⟨S16384x4096, .f32⟩
  | .hbm, ⟨25, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x16, .bf16⟩
  | .local _ .vmem, ⟨7, _⟩ => ⟨S1024x16, .bf16⟩
  | .local _ .vmem, ⟨8, _⟩ => ⟨S16x1024, .bf16⟩
  | .local _ .vmem, ⟨9, _⟩ => ⟨S16x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  bitsLt_bf16_f32 : FTy.bits .bf16 < FTy.bits .f32
  transposes_S4096x4096_S4096x4096_1_0 : S4096x4096.Transposes [1, 0] S4096x4096
  bcast_S_S16x4096 : S_.BroadcastsInDim S16x4096 (![] : Fin 0 → Fin S16x4096.rank)
  bcast_S_S4096x16 : S_.BroadcastsInDim S4096x16 (![] : Fin 0 → Fin S4096x16.rank)
  transposes_S16x4096_S4096x16_1_0 : S16x4096.Transposes [1, 0] S4096x16
  transposes_S4096x16_S16x4096_1_0 : S4096x16.Transposes [1, 0] S16x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S16384x4096_S4096x16_S16384x16_1_0_0_1_n_n_wf : DotDims.WF S16384x4096 S4096x16 S16384x16 [1] [0] [0] [1] [] []
  dot_S1024x1024_S1024x1024_S1024x1024_1_0_0_1_n_n_wf : DotDims.WF S1024x1024 S1024x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .bf16 = 32 ∨ (Rect.block (s := S16384x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .bf16 = 32 ∨ (Rect.block (s := S16x4096) S16x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x1x4096 : Shape := ⟨3, ![1, 1, 4096]⟩
abbrev S4x4096x16 : Shape := ⟨3, ![4, 4096, 16]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .i32⟩
  | .hbm, ⟨4, _⟩ => ⟨S4096x16, .i32⟩
  | .hbm, ⟨5, _⟩ => ⟨S_, .f32⟩
  | .hbm, ⟨6, _⟩ => ⟨S_, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4x4096x16, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S16x4096 : S_.BroadcastsInDim S16x4096 (![] : Fin 0 → Fin S16x4096.rank)
  bcast_S_S4096x16 : S_.BroadcastsInDim S4096x16 (![] : Fin 0 → Fin S4096x16.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  What one visit of a grid point leaves behind, as values.

  The body runs in one of three ways. At the first contraction block of an output tile (case A) it clears the
  accumulator, reads the zeros back and adds the block's product; at a middle block (case B) it adds the block's
  product to what the previous visit left; at the last block (case C) it does the same and then writes the output
  tile: the finished accumulator, plus the scaled low-rank product, plus the bias row. Every store covers its whole
  buffer from offset zero and every load reads a whole buffer, so what a buffer holds afterwards is the payload of the
  last store into it, with each load replaced by the contents loaded.
-/
import proofs.«158143_j16234976379141_2_alg».proof.Proof.Gen.KernelIdeal.Frame
import Idealize.ShloMosaic.Lib.Pipeline.Value
import Idealize.ShloMosaic.Lib.Tactic

set_option maxRecDepth 16384

noncomputable section

namespace Cert.LoraPieces

open Idealize.ShloMosaic Idealize.ShloMosaic.TcCoe Idealize.SL.Sem Idealize.ShloMosaic.Tactic
open Cert.KernelIdeal Cert.KernelIdeal.Gen

variable {F : FTy → Type} [FloatOps F]

/-- The offsets of every access of the body are zero on both axes. -/
theorem hz : (![0, 0] : Fin 2 → Nat) = fun _ => 0 := funext fun a => by fin_cases a <;> rfl

/-- Case A: the accumulator ends at the block's product added to the zeros just stored. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x1024 .bf16) (x1 : Vec F S1024x1024 .bf16) (x2 : Vec F S1x1024 .f32) (x3 : Vec F S1024x16 .bf16) (x4 : Vec F S16x1024 .bf16) :
    sout0_A_0 c i arg3 harg3 arg4 harg4 arg5 harg5 arg6 harg6 arg7 harg7 arg8 harg8 arg9 harg9 hc0 hc1 x0 x1 x2 x3 x4 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- Case B: the accumulator ends at the block's product added to what it held. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x1024 .bf16) (x1 : Vec F S1024x1024 .bf16) (x2 : Vec F S1x1024 .f32) (x3 : Vec F S1024x16 .bf16) (x4 : Vec F S16x1024 .bf16) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg9.read_unread, harg3.read_unread, harg4.read_unread, View.ld_unit_zero (S := S1024x1024) hz]

/-- Case C: the accumulator, likewise; -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .bf16) (x1 : Vec F S1024x1024 .bf16) (x2 : Vec F S1x1024 .f32) (x3 : Vec F S1024x16 .bf16) (x4 : Vec F S16x1024 .bf16) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg9.read_unread, harg3.read_unread, harg4.read_unread, View.ld_unit_zero (S := S1024x1024) hz]

/-- and the output tile: the epilogue of the finished accumulator, the low-rank factors' blocks and the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .bf16) (x1 : Vec F S1024x1024 .bf16) (x2 : Vec F S1x1024 .f32) (x3 : Vec F S1024x16 .bf16) (x4 : Vec F S16x1024 .bf16) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 x3 x4 (k0_pay2 xs0 x0 x1) x2 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg9.read_unread, harg3.read_unread, harg4.read_unread, harg5.read_unread, harg6.read_unread,
    harg7.read_unread, View.ld_unit_zero (S := S1024x1024) hz, View.ld_unit_zero (S := S1024x16) hz,
    View.ld_unit_zero (S := S16x1024) hz, View.ld_unit_zero (S := S1x1024) hz]

end Cert.LoraPieces

end
-- ==== Proof.Spec.lean ====
/-
  The arithmetic both programs compute, stated once over plain index types, with no program in sight.

  For a row `r` of the flattened activations `X` [16384, 4096] and an output column `o`, the base product is
  `∑ d, X r d * Wt d o` over the 4096 contraction positions. The kernel does not form that sum at once: it visits the
  contraction axis in four blocks of 1024 and adds each block's partial product to an accumulator that starts at zero.
  `part X Wt n r o` is the sum of the first `n` terms; adding a block moves `n` by 1024 (`part_add_block`), nothing is
  there before the first block (`part_zero`) and after the fourth the whole sum is (`part_full`). Only the
  associativity and commutativity of `+` on the extended reals are used, so no finiteness is needed.

  `kout` is what the kernel's last visit of an output block stores: the finished base product, plus twice the low-rank
  product `∑ r, XA row r * Bt r o`, plus the bias of the column.
-/
import Mathlib.Algebra.BigOperators.Intervals
import Mathlib.Algebra.BigOperators.Fin
import Idealize.ShloMosaic.PureOps.Ideal
import Idealize.ShloMosaic.PureOps.Ideal.Laws
import Idealize.ShloMosaic.Lib.ValueIdx

noncomputable section

namespace Cert.LoraSpec

open Idealize.ShloMosaic Idealize.ShloMosaic.ValueIdx

/-- The literal `2.0` (alpha / r), the same binary word in both programs; never evaluated. -/
abbrev two : EReal := Ideal.ofBits .f32 0x40000000#32

variable (X : (⟨2, ![16384, 4096]⟩ : Shape).Idx → EReal) (Wt : (⟨2, ![4096, 4096]⟩ : Shape).Idx → EReal)

/-- The first `n` terms of row `r` of `X` against column `o` of `Wt` (a position past the contraction extent adds 0). -/
def part (n : ℕ) (r : Fin 16384) (o : Fin 4096) : EReal :=
  ∑ d ∈ Finset.range n, if h : d < 4096 then X (ix2 r ⟨d, h⟩) * Wt (ix2 ⟨d, h⟩ o) else 0

theorem part_zero (r : Fin 16384) (o : Fin 4096) : part X Wt 0 r o = 0 := Finset.sum_range_zero _

/-- Adding contraction block `k` (positions `1024 k … 1024 k + 1023`) to the first `1024 k` terms gives the first `1024 (k + 1)`. -/
theorem part_add_block (k : ℕ) (hk : k < 4) (r : Fin 16384) (o : Fin 4096) :
    part X Wt ((k + 1) * 1024) r o
      = part X Wt (k * 1024) r o
        + ∑ d' : Fin 1024, X (ix2 r ⟨k * 1024 + d'.val, by have := d'.isLt; omega⟩) * Wt (ix2 ⟨k * 1024 + d'.val, by have := d'.isLt; omega⟩ o) := by
  unfold part
  rw [show (k + 1) * 1024 = k * 1024 + 1024 by ring, Finset.sum_range_add]
  refine congrArg (_ + ·) ?_
  rw [Finset.sum_range]
  refine Finset.sum_congr rfl fun d' _ => ?_
  have h : k * 1024 + d'.val < 4096 := by have := d'.isLt; omega
  exact dif_pos h

/-- All 4096 terms: the base product. -/
theorem part_full (r : Fin 16384) (o : Fin 4096) :
    part X Wt 4096 r o = ∑ d : Fin 4096, X (ix2 r d) * Wt (ix2 d o) := by
  unfold part
  rw [Finset.sum_range]
  refine Finset.sum_congr rfl fun d _ => ?_
  rw [dif_pos d.isLt]

variable (XA : (⟨2, ![16384, 16]⟩ : Shape).Idx → EReal) (Bt : (⟨2, ![16, 4096]⟩ : Shape).Idx → EReal)
  (B2 : (⟨2, ![1, 4096]⟩ : Shape).Idx → EReal)

/-- What an output element ends at: base product, plus twice the low-rank product, plus the column's bias — in the
    order the kernel adds them. -/
def kout (j : (⟨2, ![16384, 4096]⟩ : Shape).Idx) : EReal :=
  (part X Wt 4096 (j 0) (j 1) + (∑ r : Fin 16, XA (ix2 (j 0) r) * Bt (ix2 r (j 1))) * two) + B2 (ix2 0 (j 1))

end Cert.LoraSpec

end
-- ==== Proof.Payloads.lean ====
/-
  The body's three stored values, entry by entry, over the extended reals.

  The cleared accumulator is 0 everywhere. One contraction step adds to the accumulator, at row `p` and column `q` of
  the tile, the sum over the block's 1024 positions `k` of `x p k * w k q`. The epilogue adds to the accumulator twice
  the rank-16 product `∑ r, xa p r * bt r q`, then the bias of column `q`. A change of float format is the identity on the
  extended reals, so the narrow operands enter these sums as they are.
-/
import proofs.«158143_j16234976379141_2_alg».proof.Proof.Gen.KernelIdeal.Skeleton
import proofs.«158143_j16234976379141_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.LoraPayloads

open Idealize.ShloMosaic Idealize.ShloMosaic.ValueIdx
open Cert.KernelIdeal Cert.KernelIdeal.Gen

/-! ### The 1024×1024 by 1024×1024 product's operand indices -/

theorem lhs_base_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_base_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_base_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_base_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the matrix unit's product at row `p`, column `q` is the plain sum over the 1024 contraction positions. -/
theorem mm_base (l : FVec Ideal S1024x1024 .bf16) (r : FVec Ideal S1024x1024 .bf16) (p : Fin 1024) (q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_base_0 _ _
    | ⟨1, _⟩ => exact (lhs_base_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_base_0 _ _).trans hk
    | ⟨1, _⟩ => exact rhs_base_1 _ _)
  rw [el, er]

/-! ### The 1024×16 by 16×1024 product's operand indices -/

theorem lhs_lora_0 (i : S1024x1024.Idx) (q : dot_S1024x16_S16x1024_S1024x1024_1_0_0_1_n_n.contr.Idx) : (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_lora_1 (i : S1024x1024.Idx) (q : dot_S1024x16_S16x1024_S1024x1024_1_0_0_1_n_n.contr.Idx) : (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_lora_0 (i : S1024x1024.Idx) (q : dot_S1024x16_S16x1024_S1024x1024_1_0_0_1_n_n.contr.Idx) : (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_lora_1 (i : S1024x1024.Idx) (q : dot_S1024x16_S16x1024_S1024x1024_1_0_0_1_n_n.contr.Idx) : (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Into a zero accumulator the matrix unit's product at row `p`, column `q` is the plain sum over the 16 contraction positions. -/
theorem mm_lora (l : FVec Ideal S1024x16 .bf16) (r : FVec Ideal S16x1024 .bf16) (p : Fin 1024) (q : Fin 1024) :
    matmul dot_S1024x16_S16x1024_S1024x1024_1_0_0_1_n_n none l r (constant (F := Ideal) S1024x1024 .f32 0x00000000#32) (ix2 p q)
      = ∑ k : Fin 16, l (ix2 p k) * r (ix2 k q) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_lora_0 _ _
    | ⟨1, _⟩ => exact (lhs_lora_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_lora_0 _ _).trans hk
    | ⟨1, _⟩ => exact rhs_lora_1 _ _)
  rw [el, er]

/-! ### The three stored values -/

/-- The cleared accumulator. -/
theorem pay1_apply (p q : Fin 1024) : k0_pay1 (F := Ideal) (ix2 p q) = 0 := by
  unfold k0_pay1
  simp only [shapeCast_self]
  exact Ideal.ofBits_zero_f32

/-- One contraction step. -/
theorem pay2_apply (v3 : FVec Ideal S1024x1024 .f32) (v4 v6 : FVec Ideal S1024x1024 .bf16) (p q : Fin 1024) :
    k0_pay2 (F := Ideal) v3 v4 v6 (ix2 p q) = v3 (ix2 p q) + ∑ k : Fin 1024, v4 (ix2 p k) * v6 (ix2 k q) := by
  unfold k0_pay2
  simp only [shapeCast_self]
  exact congrArg (v3 (ix2 p q) + ·) (mm_base v4 v6 p q)

/-- The epilogue. -/
theorem pay3_apply (v16 : FVec Ideal S1024x16 .bf16) (v18 : FVec Ideal S16x1024 .bf16) (v23 : FVec Ideal S1024x1024 .f32)
    (v25 : FVec Ideal S1x1024 .f32) (p q : Fin 1024) :
    k0_pay3 (F := Ideal) v16 v18 v23 v25 (ix2 p q)
      = (v23 (ix2 p q) + (∑ r : Fin 16, v16 (ix2 p r) * v18 (ix2 r q)) * Cert.LoraSpec.two) + v25 (ix2 0 q) := by
  unfold k0_pay3
  simp only [shapeCast_self]
  have eb : broadcastTo S1024x1024 v25 broadcasts_S1x1024_S1024x1024 (ix2 p q) = v25 (ix2 0 q) :=
    broadcastTo_1b_ab_apply v25 broadcasts_S1x1024_S1024x1024 p q
  show (v23 (ix2 p q) + matmul dot_S1024x16_S16x1024_S1024x1024_1_0_0_1_n_n none v16 v18 (constant (F := Ideal) S1024x1024 .f32 0x00000000#32) (ix2 p q) * Cert.LoraSpec.two)
      + broadcastTo S1024x1024 v25 broadcasts_S1x1024_S1024x1024 (ix2 p q) = _
  rw [eb, mm_lora]

end Cert.LoraPayloads

end
-- ==== Proof.Blocks.lean ====
/-
  Which entries of an array a window's block holds.

  The grid has 16 × 4 × 4 points, numbered row-major: point `t` is the output tile at tile-row `t / 16` and tile-column
  `t / 4 % 4`, visiting contraction block `t % 4`. At that point the activations' block is rows `1024 (t / 16) + p`,
  positions `1024 (t % 4) + k`; the transposed weights' block is positions `1024 (t % 4) + k`, columns
  `1024 (t / 4 % 4) + q`; the bias row, the rank-16 activations and the transposed rank-16 weights are cut along the
  tile's columns or rows only. An element of a block sits in its array at block index × block size + its own coordinate.
-/
import proofs.«158143_j16234976379141_2_alg».proof.Proof.Gen.KernelIdeal.Frame
import Idealize.ShloMosaic.Lib.Pipeline.Value
import Idealize.ShloMosaic.Lib.ValueIdx

set_option maxRecDepth 16384

noncomputable section

namespace Cert.LoraBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The activations' block. -/
theorem blk0_apply (t : Fin cfg0.N) (p : Fin 1024) (q : Fin 1024) (P : Fin 16384) (Q : Fin 4096)
    (hP : P.val = t.val / 16 * 1024 + p.val) (hQ : Q.val = t.val % 4 * 1024 + q.val) :
    (iblk m c 0 t : FVec Ideal S1024x1024 .bf16) (ix2 p q) = (V m c main_v1 : S16384x4096.Idx → EReal) (ix2 P Q) := by
  have hi : win0_0.index t 0 = t.val / 16 ∧ win0_0.index t 1 = t.val % 4 :=
    (by decide +kernel : ∀ t : Fin grid0.N, win0_0.index t 0 = t.val / 16 ∧ win0_0.index t 1 = t.val % 4) t
  unfold iblk
  rw [View.read_apply]
  show V m c main_v1 _ = V m c main_v1 _
  congr 1
  funext a
  apply Fin.ext
  match a with
  | ⟨0, _⟩ => show win0_0.index t 0 * 1024 + 1 * p.val = P.val; rw [hi.1, hP]; omega
  | ⟨1, _⟩ => show win0_0.index t 1 * 1024 + 1 * q.val = Q.val; rw [hi.2, hQ]; omega

/-- The transposed weights' block. -/
theorem blk1_apply (t : Fin cfg0.N) (p : Fin 1024) (q : Fin 1024) (P : Fin 4096) (Q : Fin 4096)
    (hP : P.val = t.val % 4 * 1024 + p.val) (hQ : Q.val = t.val / 4 % 4 * 1024 + q.val) :
    (iblk m c 1 t : FVec Ideal S1024x1024 .bf16) (ix2 p q) = (V m c main_v3 : S4096x4096.Idx → EReal) (ix2 P Q) := by
  have hi : win0_1.index t 0 = t.val % 4 ∧ win0_1.index t 1 = t.val / 4 % 4 :=
    (by decide +kernel : ∀ t : Fin grid0.N, win0_1.index t 0 = t.val % 4 ∧ win0_1.index t 1 = t.val / 4 % 4) t
  unfold iblk
  rw [View.read_apply]
  show V m c main_v3 _ = V m c main_v3 _
  congr 1
  funext a
  apply Fin.ext
  match a with
  | ⟨0, _⟩ => show win0_1.index t 0 * 1024 + 1 * p.val = P.val; rw [hi.1, hP]; omega
  | ⟨1, _⟩ => show win0_1.index t 1 * 1024 + 1 * q.val = Q.val; rw [hi.2, hQ]; omega

/-- The bias row's block. -/
theorem blk2_apply (t : Fin cfg0.N) (p : Fin 1) (q : Fin 1024) (P : Fin 1) (Q : Fin 4096)
    (hP : P.val = p.val) (hQ : Q.val = t.val / 4 % 4 * 1024 + q.val) :
    (iblk m c 2 t : FVec Ideal S1x1024 .f32) (ix2 p q) = (V m c main_v16 : S1x4096.Idx → EReal) (ix2 P Q) := by
  have hi : win0_2.index t 0 = 0 ∧ win0_2.index t 1 = t.val / 4 % 4 :=
    (by decide +kernel : ∀ t : Fin grid0.N, win0_2.index t 0 = 0 ∧ win0_2.index t 1 = t.val / 4 % 4) t
  unfold iblk
  rw [View.read_apply]
  show V m c main_v16 _ = V m c main_v16 _
  congr 1
  funext a
  apply Fin.ext
  match a with
  | ⟨0, _⟩ => show win0_2.index t 0 * 1 + 1 * p.val = P.val; rw [hi.1, hP]; omega
  | ⟨1, _⟩ => show win0_2.index t 1 * 1024 + 1 * q.val = Q.val; rw [hi.2, hQ]; omega

/-- The rank-16 activations' block. -/
theorem blk3_apply (t : Fin cfg0.N) (p : Fin 1024) (q : Fin 16) (P : Fin 16384) (Q : Fin 16)
    (hP : P.val = t.val / 16 * 1024 + p.val) (hQ : Q.val = q.val) :
    (iblk m c 3 t : FVec Ideal S1024x16 .bf16) (ix2 p q) = (V m c main_v14 : S16384x16.Idx → EReal) (ix2 P Q) := by
  have hi : win0_3.index t 0 = t.val / 16 ∧ win0_3.index t 1 = 0 :=
    (by decide +kernel : ∀ t : Fin grid0.N, win0_3.index t 0 = t.val / 16 ∧ win0_3.index t 1 = 0) t
  unfold iblk
  rw [View.read_apply]
  show V m c main_v14 _ = V m c main_v14 _
  congr 1
  funext a
  apply Fin.ext
  match a with
  | ⟨0, _⟩ => show win0_3.index t 0 * 1024 + 1 * p.val = P.val; rw [hi.1, hP]; omega
  | ⟨1, _⟩ => show win0_3.index t 1 * 16 + 1 * q.val = Q.val; rw [hi.2, hQ]; omega

/-- The transposed rank-16 weights' block. -/
theorem blk4_apply (t : Fin cfg0.N) (p : Fin 16) (q : Fin 1024) (P : Fin 16) (Q : Fin 4096)
    (hP : P.val = p.val) (hQ : Q.val = t.val / 4 % 4 * 1024 + q.val) :
    (iblk m c 4 t : FVec Ideal S16x1024 .bf16) (ix2 p q) = (V m c main_v15 : S16x4096.Idx → EReal) (ix2 P Q) := by
  have hi : win0_4.index t 0 = 0 ∧ win0_4.index t 1 = t.val / 4 % 4 :=
    (by decide +kernel : ∀ t : Fin grid0.N, win0_4.index t 0 = 0 ∧ win0_4.index t 1 = t.val / 4 % 4) t
  unfold iblk
  rw [View.read_apply]
  show V m c main_v15 _ = V m c main_v15 _
  congr 1
  funext a
  apply Fin.ext
  match a with
  | ⟨0, _⟩ => show win0_4.index t 0 * 16 + 1 * p.val = P.val; rw [hi.1, hP]; omega
  | ⟨1, _⟩ => show win0_4.index t 1 * 1024 + 1 * q.val = Q.val; rw [hi.2, hQ]; omega

end Cert.LoraBlocks

end
-- ==== Proof.Accum.lean ====
/-
  The accumulator across the grid, and the output tile the last visit writes.

  Fix an output tile: tile-row `t / 16`, tile-column `t / 4 % 4`. Its four visits are consecutive points, contraction
  blocks 0, 1, 2, 3 in order. After the visit of block `k` the accumulator holds, at row `p` and column `q` of the tile,
  the first `1024 (k + 1)` terms of the base product of array row `R = 1024 (t / 16) + p` and array column
  `O = 1024 (t / 4 % 4) + q`: the first visit starts from the zeros it has just stored, every later visit from what the
  visit before left. By induction on the point, never by listing the 256 points. After the fourth visit that is the
  whole base product, and the tile written there is that, plus twice the low-rank product, plus the bias.
-/
import proofs.«158143_j16234976379141_2_alg».proof.Proof.Pieces
import proofs.«158143_j16234976379141_2_alg».proof.Proof.Payloads
import proofs.«158143_j16234976379141_2_alg».proof.Proof.Blocks
import proofs.«158143_j16234976379141_2_alg».proof.Proof.Spec

set_option maxRecDepth 16384

noncomputable section

namespace Cert.LoraAccum

open Idealize.ShloMosaic Idealize.ShloMosaic.TcCoe Idealize.SL.Sem Idealize.ShloMosaic.ValueIdx
open Cert.KernelIdeal Cert.KernelIdeal.Gen Cert.LoraSpec Cert.LoraPieces Cert.LoraPayloads Cert.LoraBlocks

variable (m : (ℓ : Loc nD τ sig) → Buf (Elt Ideal) ℓ) (c : Dev nD)

/-- What the accumulator holds after the first visit of a tile, as the stored value. -/
theorem snd_first (t : Fin cfg0.N) (h0 : t.val % 4 = 0) :
    (outsAt0 m c t.val t.isLt).2 = k0_pay2 (k0_pay1 (F := Ideal)) (iblk m c 0 t) (iblk m c 1 t) := by
  have h1 : ¬t.val % 4 = 3 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => h1 ((hcond0_1 t).mp hh)) (iblk m c 0 t) (iblk m c 1 t) (iblk m c 2 t) (iblk m c 3 t) (iblk m c 4 t)

/-- What it holds after a later visit, from what the visit before left. -/
theorem snd_next (n : ℕ) (h : n + 1 < cfg0.N) (h0 : ¬(n + 1) % 4 = 0) :
    (outsAt0 m c (n + 1) h).2 = k0_pay2 (outsAt0 m c n (Nat.lt_of_succ_lt h)).2 (iblk m c 0 ⟨n + 1, h⟩) (iblk m c 1 ⟨n + 1, h⟩) := by
  by_cases h1 : (n + 1) % 4 = 3
  · rw [show outsAt0 m c (n + 1) h = _ from outsAt0_C m c ⟨n + 1, h⟩ h0 h1]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
  · rw [show outsAt0 m c (n + 1) h = _ from outsAt0_B m c ⟨n + 1, h⟩ h0 h1]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

/-- The output tile after the fourth visit, from the accumulator that visit leaves. -/
theorem fst_last (t : Fin cfg0.N) (h1 : t.val % 4 = 3) :
    (outsAt0 m c t.val t.isLt).1 = k0_pay3 (iblk m c 3 t) (iblk m c 4 t) (outsAt0 m c t.val t.isLt).2 (iblk m c 2 t) := by
  have h0 : ¬t.val % 4 = 0 := by omega
  rw [outsAt0_C m c t h0 h1]
  dsimp only
  rw [scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- The first visit of a tile: the first 1024 terms. -/
theorem acc_first (t : Fin cfg0.N) (h0 : t.val % 4 = 0) (p q : Fin 1024) (R : Fin 16384) (O : Fin 4096)
    (hR : R.val = t.val / 16 * 1024 + p.val) (hO : O.val = t.val / 4 % 4 * 1024 + q.val) :
    ((outsAt0 m c t.val t.isLt).2 : FVec Ideal S1024x1024 .f32) (ix2 p q)
      = part (V m c main_v1) (V m c main_v3) ((0 + 1) * 1024) R O := by
  rw [snd_first m c t h0, pay2_apply (k0_pay1 (F := Ideal)) (iblk m c 0 t : FVec Ideal S1024x1024 .bf16) (iblk m c 1 t : FVec Ideal S1024x1024 .bf16) p q, pay1_apply p q, zero_add,
    part_add_block (V m c main_v1) (V m c main_v3) 0 (by decide) R O,
    show part (V m c main_v1) (V m c main_v3) (0 * 1024) R O = 0 from part_zero (V m c main_v1) (V m c main_v3) R O, zero_add]
  refine Finset.sum_congr rfl fun k _ => ?_
  rw [blk0_apply m c t p k R ⟨0 * 1024 + k.val, by have := k.isLt; omega⟩ hR (by show 0 * 1024 + k.val = _; omega),
    blk1_apply m c t k q ⟨0 * 1024 + k.val, by have := k.isLt; omega⟩ O (by show 0 * 1024 + k.val = _; omega) hO]

/-- A later visit: 1024 more terms on top of what the visit before left. -/
theorem acc_next (n : ℕ) (h : n + 1 < cfg0.N) (h0 : ¬(n + 1) % 4 = 0) (p q : Fin 1024) (R : Fin 16384) (O : Fin 4096)
    (hR : R.val = (n + 1) / 16 * 1024 + p.val) (hO : O.val = (n + 1) / 4 % 4 * 1024 + q.val)
    (ih : ((outsAt0 m c n (Nat.lt_of_succ_lt h)).2 : FVec Ideal S1024x1024 .f32) (ix2 p q)
      = part (V m c main_v1) (V m c main_v3) ((n + 1) % 4 * 1024) R O) :
    ((outsAt0 m c (n + 1) h).2 : FVec Ideal S1024x1024 .f32) (ix2 p q)
      = part (V m c main_v1) (V m c main_v3) (((n + 1) % 4 + 1) * 1024) R O := by
  have hk4 : (n + 1) % 4 < 4 := Nat.mod_lt _ (by decide)
  rw [snd_next m c n h h0, pay2_apply (outsAt0 m c n (Nat.lt_of_succ_lt h)).2 (iblk m c 0 ⟨n + 1, h⟩ : FVec Ideal S1024x1024 .bf16) (iblk m c 1 ⟨n + 1, h⟩ : FVec Ideal S1024x1024 .bf16) p q, ih,
    part_add_block (V m c main_v1) (V m c main_v3) ((n + 1) % 4) hk4 R O]
  refine congrArg (part (V m c main_v1) (V m c main_v3) ((n + 1) % 4 * 1024) R O + ·) (Finset.sum_congr rfl fun k _ => ?_)
  rw [blk0_apply m c ⟨n + 1, h⟩ p k R ⟨(n + 1) % 4 * 1024 + k.val, by have := k.isLt; omega⟩ hR rfl,
    blk1_apply m c ⟨n + 1, h⟩ k q ⟨(n + 1) % 4 * 1024 + k.val, by have := k.isLt; omega⟩ O rfl hO]

/-- After the visit at point `n` the accumulator holds the first `1024 (n % 4 + 1)` terms. -/
theorem acc_inv : ∀ (n : ℕ) (h : n < cfg0.N) (p q : Fin 1024) (R : Fin 16384) (O : Fin 4096),
    R.val = n / 16 * 1024 + p.val → O.val = n / 4 % 4 * 1024 + q.val →
    ((outsAt0 m c n h).2 : FVec Ideal S1024x1024 .f32) (ix2 p q)
      = part (V m c main_v1) (V m c main_v3) ((n % 4 + 1) * 1024) R O
  | 0, h, p, q, R, O, hR, hO => acc_first m c ⟨0, h⟩ rfl p q R O hR hO
  | n + 1, h, p, q, R, O, hR, hO => by
    by_cases h0 : (n + 1) % 4 = 0
    · rw [h0]; exact acc_first m c ⟨n + 1, h⟩ h0 p q R O hR hO
    · refine acc_next m c n h h0 p q R O hR hO ?_
      rw [acc_inv n (Nat.lt_of_succ_lt h) p q R O (by omega) (by omega), show n % 4 + 1 = (n + 1) % 4 by omega]

/-- The tile the fourth visit writes: the whole base product, plus twice the low-rank product, plus the bias. -/
theorem out_last (t : Fin cfg0.N) (h1 : t.val % 4 = 3) (p q : Fin 1024) (R : Fin 16384) (O : Fin 4096)
    (hR : R.val = t.val / 16 * 1024 + p.val) (hO : O.val = t.val / 4 % 4 * 1024 + q.val) :
    ((outsAt0 m c t.val t.isLt).1 : FVec Ideal S1024x1024 .f32) (ix2 p q)
      = kout (V m c main_v1) (V m c main_v3) (V m c main_v14) (V m c main_v15) (V m c main_v16) (ix2 R O) := by
  rw [fst_last m c t h1,
    pay3_apply (iblk m c 3 t : FVec Ideal S1024x16 .bf16) (iblk m c 4 t : FVec Ideal S16x1024 .bf16) (outsAt0 m c t.val t.isLt).2
      (iblk m c 2 t : FVec Ideal S1x1024 .f32) p q,
    acc_inv m c t.val t.isLt p q R O hR hO, h1, show (3 + 1) * 1024 = 4096 from rfl]
  unfold kout
  rw [blk2_apply m c t 0 q 0 O rfl hO]
  refine congrArg (fun s => (part (V m c main_v1) (V m c main_v3) 4096 R O + s * two) + (V m c main_v16 : S1x4096.Idx → EReal) (ix2 0 O))
    (Finset.sum_congr rfl fun r _ => ?_)
  rw [blk3_apply m c t p r R r hR rfl, blk4_apply m c t r q r O rfl hO]

end Cert.LoraAccum

end
-- ==== Proof.Final.lean ====
/-
  From the tiles to the whole result.

  The output window writes a tile back only after the tile's fourth visit (the points `t` with `t % 4 = 3`); what it
  writes is tile (`t / 16`, `t / 4 % 4`) of ONE function of the arrays the region found: at row `R`, column `O` the base
  product plus twice the low-rank product plus the bias. The sixteen by four tiles cover the [16384, 4096] array — entry
  (R, O) lies in the tile written at point `16 (R / 1024) + 4 (O / 1024) + 3` — so after the run the array holds that function
  everywhere. The one host operation after the region reads it back as [4, 4096, 4096]: entry (b, s, o) is entry
  (4096 b + s, o).
-/
import proofs.«158143_j16234976379141_2_alg».proof.Proof.Accum
import Idealize.ShloMosaic.Lib.Pipeline.Value
import Idealize.ShloMosaic.Lib.StableHlo.Run

set_option maxRecDepth 16384

noncomputable section

namespace Cert.LoraFinal

open Idealize.ShloMosaic Idealize.ShloMosaic.TcCoe Idealize.SL.Sem Idealize.ShloMosaic.ValueIdx
open Idealize.ShloMosaic.Pipeline (Dat)
open Cert.KernelIdeal Cert.KernelIdeal.Gen Cert.LoraSpec Cert.LoraAccum

variable (m : (ℓ : Loc nD τ sig) → Buf (Elt Ideal) ℓ) (ρ : Dev nD → PrngReg)

/-- What the [16384, 4096] result of the region holds, from the arrays the region found. -/
abbrev res2d (c : Dev nD) : S16384x4096.Idx → EReal :=
  kout (V m c main_v1) (V m c main_v3) (V m c main_v14) (V m c main_v15) (V m c main_v16)

/-- The output window's block index at a point, decided over the grid. -/
theorem idx_out : ∀ t : Fin cfg0.N, win0_5.index t 0 = t.val / 16 ∧ win0_5.index t 1 = t.val / 4 % 4 :=
  (by decide +kernel : ∀ t : Fin grid0.N, win0_5.index t 0 = t.val / 16 ∧ win0_5.index t 1 = t.val / 4 % 4)

/-- The tile after the fourth visit, entry by entry, at the array entry under it. -/
theorem tile_entry (c : Dev nD) (t : Fin cfg0.N) (h1 : t.val % 4 = 3) (y : S1024x1024.Idx) (i : S16384x4096.Idx)
    (h0i : (i 0).val = t.val / 16 * 1024 + (y 0).val) (h1i : (i 1).val = t.val / 4 % 4 * 1024 + (y 1).val) :
    ((outsAt0 m c t.val t.isLt).1 : FVec Ideal S1024x1024 .f32) y = res2d m c i := by
  rw [eq_ix2 y, eq_ix2 i]
  exact out_last m c t h1 (y 0) (y 1) (i 0) (i 1) h0i h1i

/-- What a flushing point writes back is its tile of `res2d`. -/
theorem flushed_eq (c : Dev nD) (t : Fin cfg0.N) (hf : (cfg0.win 5).flush t = true) :
    (dats m 0 c).flushed 5 t = ((cfg0.win 5).blk t).view.read (Elt Ideal) (res2d m c) := by
  have h1 : t.val % 4 = 3 := (flush0_5 t).mp hf
  obtain ⟨e0, e1⟩ := idx_out t
  show (cfg0.win 5).cut (grid0.coords t) ((dats m 0 c).after 5 t) = _
  rw [after0_5]
  funext j
  show ((outsAt0 m c t.val t.isLt).1 : FVec Ideal S1024x1024 .f32) j = res2d m c (((cfg0.win 5).blk t).view.emb j)
  refine tile_entry m c t h1 j _ ?_ ?_
  · show win0_5.index t 0 * 1024 + 1 * (j 0).val = _; rw [e0]; omega
  · show win0_5.index t 1 * 1024 + 1 * (j 1).val = _; rw [e1]; omega

/-- An entry of the array is in point `t`'s tile iff each coordinate is in the tile's range. -/
theorem mem_tile (t : Fin cfg0.N) (i : S16384x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v17).slice (win0_5.rect t)).set ↔ _
  rw [View.set_slice_whole, Rect.mem_set_unit]
  exact Iff.rfl

/-- Every entry is in the tile some flushing point writes. -/
theorem cover (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  refine ⟨⟨(i 0).val / 1024 * 16 + (i 1).val / 1024 * 4 + 3, by rw [hN]; omega⟩, (flush0_5 _).mpr (by show ((i 0).val / 1024 * 16 + (i 1).val / 1024 * 4 + 3) % 4 = 3; omega), ?_⟩
  rw [mem_tile]
  obtain ⟨e0, e1⟩ := idx_out ⟨(i 0).val / 1024 * 16 + (i 1).val / 1024 * 4 + 3, by rw [hN]; omega⟩
  intro a
  match a with
  | ⟨0, _⟩ =>
    show win0_5.index _ 0 * 1024 ≤ (i 0).val ∧ (i 0).val < win0_5.index _ 0 * 1024 + 1024
    rw [e0]; show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_5.index _ 1 * 1024 ≤ (i 1).val ∧ (i 1).val < win0_5.index _ 1 * 1024 + 1024
    rw [e1]; show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The region's result array after the run. -/
theorem final (c : Dev nD) : (dats m 0 c).arrAt 5 cfg0.N = res2d m c :=
  (dats m 0 c).arrAt_eq_of_cover 5 (res2d m c) (flushed_eq m c) cover

/-! ## After the region: the result read back as [4, 4096, 4096] -/

/-- The program's result: the region's array re-read in the batched shape. -/
abbrev res3d (c : Dev nD) : S4x4096x4096.Idx → EReal :=
  shapeCast S4x4096x4096 (res2d m c) shapeCasts_S16384x4096_S4x4096x4096

/-- Entry (b, s, o) of the result is entry (4096 b + s, o) of the region's array: the same row-major position. -/
theorem res3d_apply (c : Dev nD) (b : Fin 4) (s o : Fin 4096) :
    res3d m c (ix3 b s o) = res2d m c (ix2 ⟨b.val * 4096 + s.val, by have := b.isLt; have := s.isLt; omega⟩ o) := by
  refine shapeCast_apply (res2d m c) shapeCasts_S16384x4096_S4x4096x4096 (ix3 b s o) _ ?_
  rw [Shape.rowMajor_val_two, Shape.rowMajor_val_three]
  rfl

/-- What the one host operation after the region leaves in the result buffer. -/
theorem tail_eq (c : Dev nD) :
    Pipeline.afterTail₀ cfgs (dats m) 0 (V0 m) [hostOps1] c main_v18 = res3d m c := by
  unfold Pipeline.afterTail₀
  show StableHlo.after hostOps1 _ (Proc.devRef .tc main_v18) = _
  after_results
  rw [show Pipeline.withArrays (cfgs 0).spec c (V0 m c) (fun w => (dats m 0 c).arrAt w (cfgs 0).N) (Proc.devRef .tc main_v17) = res2d m c from
    (Pipeline.withArrays_arr spec0 launch0.win.arr_inj c (V0 m c) (fun w => (dats m 0 c).arrAt w cfg0.N) 5).trans (final m c)]
  rfl

/-- The run, read: the result buffer at `res3d`, the arguments unchanged. -/
theorem run : θ_run defs (onTc (τ := τ) (main (F := Ideal))) ⟨m, fun _ => 0, ρ⟩ fun r => ∀ c : Dev nD,
      r.2.mem ((c.tc : Thread nD τ).loc main_v18) = res3d m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.LoraFinal

end
-- ==== Proof.HostSide.lean ====
/-
  The arrays the kernel region reads, and the reference's result, each read at one index.

  Before the region the program prepares its operands on the host: the activations [4, 4096, 4096] are flattened to
  [16384, 4096]; the weight is transposed; the two integer low-rank factors are converted to floats and scaled by
  their scalars, one of them multiplied into the flattened activations (a [16384, 16] product), the other transposed;
  the bias gets a leading unit axis. At the ideal instance a change of float format is the identity, so every one of
  these arrays, read at an index, is an expression in the program's arguments at explicit indices: that is what the
  first part proves, one theorem per array. The second part reads the reference program's result at an index the same
  way, as two nested sums over the arguments.
-/
import proofs.«158143_j16234976379141_2_alg».proof.Proof.Gen.KernelIdeal.Frame
import proofs.«158143_j16234976379141_2_alg».proof.Proof.Gen.ReferenceIdeal.Read
import proofs.«158143_j16234976379141_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.LoraHost

open Idealize.ShloMosaic Idealize.ShloMosaic.TcCoe Idealize.SL.Sem Idealize.ShloMosaic.ValueIdx

/-! ## The staged arrays at an index -/

section Kernel

open Cert.KernelIdeal Cert.KernelIdeal.Gen Idealize.ShloMosaic.StableHlo

variable (m : (ℓ : Loc nD τ sig) → Buf (Elt Ideal) ℓ) (c : Dev nD)

/-- The flattened activations: the argument reshaped, then narrowed. -/
theorem v1_eq :
    @Eq (S16384x4096.Idx → EReal) (V m c main_v1)
      (truncf (F := Ideal) .bf16 (shapeCast S16384x4096 (m ((c : Thread nD τ).loc main_arg0) : S4x4096x4096.Idx → EReal) Gen.shapeCasts_S4x4096x4096_S16384x4096 : FVec Ideal S16384x4096 .f32) Gen.bitsLt_bf16_f32) := by
  show StableHlo.after hostOps0 (fun b => m (c, b)) (Proc.devRef .tc main_v1) = _
  after_results
  rfl

/-- Row `r` of the flattened activations is row `r % 4096` of batch `r / 4096`. -/
theorem v1_apply (r : Fin 16384) (d : Fin 4096) :
    (V m c main_v1 : S16384x4096.Idx → EReal) (ix2 r d)
      = (m ((c : Thread nD τ).loc main_arg0) : S4x4096x4096.Idx → EReal)
          (ix3 ⟨r.val / 4096, by have := r.isLt; omega⟩ ⟨r.val % 4096, Nat.mod_lt _ (by decide)⟩ d) := by
  refine (congrFun (v1_eq m c) (ix2 r d)).trans ?_
  rw [truncf_apply]
  refine shapeCast_apply _ _ _ _ ?_
  show (S4x4096x4096.rowMajor _).val = (S16384x4096.rowMajor _).val
  rw [Shape.rowMajor_val_three, Shape.rowMajor_val_two]
  show (r.val / 4096 * 4096 + r.val % 4096) * 4096 + d.val = r.val * 4096 + d.val
  rw [Nat.div_add_mod']

/-- The weight, transposed, then narrowed. -/
theorem v3_eq :
    @Eq (S4096x4096.Idx → EReal) (V m c main_v3)
      (truncf (F := Ideal) .bf16 (transpose S4096x4096 [1, 0] (m ((c : Thread nD τ).loc main_arg1) : S4096x4096.Idx → EReal) Gen.transposes_S4096x4096_S4096x4096_1_0 : FVec Ideal S4096x4096 .f32) Gen.bitsLt_bf16_f32) := by
  show StableHlo.after hostOps0 (fun b => m (c, b)) (Proc.devRef .tc main_v3) = _
  after_results

theorem v3_apply (d o : Fin 4096) :
    (V m c main_v3 : S4096x4096.Idx → EReal) (ix2 d o) = (m ((c : Thread nD τ).loc main_arg1) : S4096x4096.Idx → EReal) (ix2 o d) := by
  refine (congrFun (v3_eq m c) (ix2 d o)).trans ?_
  rw [truncf_apply]
  exact transpose_ix2_apply _ _ d o

/-- The bias with a leading unit axis. -/
theorem v16_eq :
    @Eq (S1x4096.Idx → EReal) (V m c main_v16)
      (shapeCast S1x4096 (m ((c : Thread nD τ).loc main_arg2) : S4096.Idx → EReal) Gen.shapeCasts_S4096_S1x4096) := by
  show StableHlo.after hostOps0 (fun b => m (c, b)) (Proc.devRef .tc main_v16) = _
  after_results
  rfl

theorem v16_apply (o : Fin 4096) :
    (V m c main_v16 : S1x4096.Idx → EReal) (ix2 0 o) = (m ((c : Thread nD τ).loc main_arg2) : S4096.Idx → EReal) (ix1 o) := by
  refine (congrFun (v16_eq m c) (ix2 0 o)).trans ?_
  exact shapeCast_a_1a_apply _ _ 0 o

/-- The second low-rank factor: converted, scaled by its scalar, narrowed, transposed. -/
theorem v15_eq :
    @Eq (S16x4096.Idx → EReal) (V m c main_v15)
      (transpose S16x4096 [1, 0]
        (truncf (F := Ideal) .bf16
          (mulf (sitofp (F := Ideal) .f32 (m ((c : Thread nD τ).loc main_arg4) : S4096x16.Idx → BitVec 32))
            (broadcastInDim S4096x16 ![] Gen.bcast_S_S4096x16 (m ((c : Thread nD τ).loc main_arg6) : S_.Idx → EReal)) : FVec Ideal S4096x16 .f32)
          Gen.bitsLt_bf16_f32 : FVec Ideal S4096x16 .bf16)
        Gen.transposes_S4096x16_S16x4096_1_0) := by
  show StableHlo.after hostOps0 (fun b => m (c, b)) (Proc.devRef .tc main_v15) = _
  after_results

theorem v15_apply (r : Fin 16) (o : Fin 4096) :
    (V m c main_v15 : S16x4096.Idx → EReal) (ix2 r o)
      = FloatOps.sitofp (F := Ideal) .f32 ((m ((c : Thread nD τ).loc main_arg4) : S4096x16.Idx → BitVec 32) (ix2 o r))
          * (m ((c : Thread nD τ).loc main_arg6) : S_.Idx → EReal) ix0 := by
  refine (congrFun (v15_eq m c) (ix2 r o)).trans ?_
  rw [transpose_ix2_apply, truncf_apply, mulf_apply, sitofp_apply]
  rw [broadcastInDim_apply _ Gen.bcast_S_S4096x16 _ (ix2 o r) ix0 (fun a => a.elim0)]

/-- The host's product of the flattened activations with a [4096, 16] factor keeps the row of its left operand … -/
theorem dot_lhs_0 (i : S16384x16.Idx) (q : dot_S16384x4096_S4096x16_S16384x16_1_0_0_1_n_n.contr.Idx) :
    (dot_S16384x4096_S4096x16_S16384x16_1_0_0_1_n_n.lhsIdx i q 0).val = (i 0).val := by
  unfold DotDims.lhsIdx
  rw [dif_neg (show ¬(0 : Fin S16384x4096.rank) ∈ dot_S16384x4096_S4096x16_S16384x16_1_0_0_1_n_n.lhsBatch by decide), dif_pos (show (0 : Fin S16384x4096.rank) ∈ dot_S16384x4096_S4096x16_S16384x16_1_0_0_1_n_n.lhsNonContracting by decide)]
  rfl
/-- … and the column of its right operand; the other axis of each is the contraction's. -/
theorem dot_rhs_1 (i : S16384x16.Idx) (q : dot_S16384x4096_S4096x16_S16384x16_1_0_0_1_n_n.contr.Idx) :
    (dot_S16384x4096_S4096x16_S16384x16_1_0_0_1_n_n.rhsIdx i q 1).val = (i 1).val := by
  unfold DotDims.rhsIdx
  rw [dif_neg (show ¬(1 : Fin S4096x16.rank) ∈ dot_S16384x4096_S4096x16_S16384x16_1_0_0_1_n_n.rhsBatch by decide), dif_pos (show (1 : Fin S4096x16.rank) ∈ dot_S16384x4096_S4096x16_S16384x16_1_0_0_1_n_n.rhsNonContracting by decide)]
  rfl

/-- That product at an index: the sum over the contraction axis of the products of the elements. -/
theorem dot_apply (X : FVec Ideal S16384x4096 .bf16) (Y : FVec Ideal S4096x16 .bf16) (row : Fin 16384) (r : Fin 16) :
    (Host.dotGeneral (F := Ideal) dot_S16384x4096_S4096x16_S16384x16_1_0_0_1_n_n none X Y : FVec Ideal S16384x16 .f32) (ix2 row r)
      = ∑ k : Fin 4096, X (ix2 row k) * Y (ix2 k r) := by
  simp only [Host.dotGeneral]
  rw [Ideal.dotGeneral_apply, ← Equiv.sum_comp (ValueIdx.contrEquiv1 dot_S16384x4096_S4096x16_S16384x16_1_0_0_1_n_n 4096 rfl rfl).symm]
  refine Finset.sum_congr rfl fun k _ => ?_
  have hk := ValueIdx.contrEquiv1_symm_val dot_S16384x4096_S4096x16_S16384x16_1_0_0_1_n_n 4096 rfl rfl k
  have el : dot_S16384x4096_S4096x16_S16384x16_1_0_0_1_n_n.lhsIdx (ix2 row r) ((ValueIdx.contrEquiv1 dot_S16384x4096_S4096x16_S16384x16_1_0_0_1_n_n 4096 rfl rfl).symm k) = ix2 row k := funext fun a => Fin.ext (by
    match a with
    | ⟨0, _⟩ => exact dot_lhs_0 _ _
    | ⟨1, _⟩ => exact (dot_S16384x4096_S4096x16_S16384x16_1_0_0_1_n_n.lhsIdx_val_of_single rfl _ _).trans hk)
  have er : dot_S16384x4096_S4096x16_S16384x16_1_0_0_1_n_n.rhsIdx (ix2 row r) ((ValueIdx.contrEquiv1 dot_S16384x4096_S4096x16_S16384x16_1_0_0_1_n_n 4096 rfl rfl).symm k) = ix2 k r := funext fun a => Fin.ext (by
    match a with
    | ⟨0, _⟩ => exact (dot_S16384x4096_S4096x16_S16384x16_1_0_0_1_n_n.rhsIdx_val_of_single rfl _ _).trans hk
    | ⟨1, _⟩ => exact dot_rhs_1 _ _)
  rw [el, er]

/-- The low-rank activations: the flattened activations times the first factor (converted, scaled, narrowed,
    transposed), narrowed. -/
theorem v14_eq :
    @Eq (S16384x16.Idx → EReal) (V m c main_v14)
      (truncf (F := Ideal) .bf16
        (Host.dotGeneral (F := Ideal) (φ₁ := .bf16) (φ₂ := .bf16) dot_S16384x4096_S4096x16_S16384x16_1_0_0_1_n_n none
          (V m c main_v1)
          (transpose S4096x16 [1, 0]
            (truncf (F := Ideal) .bf16
              (mulf (sitofp (F := Ideal) .f32 (m ((c : Thread nD τ).loc main_arg3) : S16x4096.Idx → BitVec 32))
                (broadcastInDim S16x4096 ![] Gen.bcast_S_S16x4096 (m ((c : Thread nD τ).loc main_arg5) : S_.Idx → EReal)) : FVec Ideal S16x4096 .f32)
              Gen.bitsLt_bf16_f32 : FVec Ideal S16x4096 .bf16)
            Gen.transposes_S16x4096_S4096x16_1_0 : FVec Ideal S4096x16 .bf16) : FVec Ideal S16384x16 .f32)
        Gen.bitsLt_bf16_f32) := by
  rw [v1_eq m c]
  show StableHlo.after hostOps0 (fun b => m (c, b)) (Proc.devRef .tc main_v14) = _
  after_results
  rfl

/-- The first low-rank factor as the product's right operand (converted, scaled by its scalar, narrowed, transposed),
    at an index. -/
theorem a_apply (d : Fin 4096) (r : Fin 16) :
    (transpose S4096x16 [1, 0]
        (truncf (F := Ideal) .bf16
          (mulf (sitofp (F := Ideal) .f32 (m ((c : Thread nD τ).loc main_arg3) : S16x4096.Idx → BitVec 32))
            (broadcastInDim S16x4096 ![] Gen.bcast_S_S16x4096 (m ((c : Thread nD τ).loc main_arg5) : S_.Idx → EReal)) : FVec Ideal S16x4096 .f32)
          Gen.bitsLt_bf16_f32 : FVec Ideal S16x4096 .bf16)
        Gen.transposes_S16x4096_S4096x16_1_0 : FVec Ideal S4096x16 .bf16) (ix2 d r)
      = FloatOps.sitofp (F := Ideal) .f32 ((m ((c : Thread nD τ).loc main_arg3) : S16x4096.Idx → BitVec 32) (ix2 r d))
          * (m ((c : Thread nD τ).loc main_arg5) : S_.Idx → EReal) ix0 := by
  rw [transpose_ix2_apply, truncf_apply, mulf_apply, sitofp_apply]
  rw [broadcastInDim_apply _ Gen.bcast_S_S16x4096 _ (ix2 r d) ix0 (fun a => a.elim0)]

theorem v14_apply (row : Fin 16384) (r : Fin 16) :
    @Eq EReal (V m c main_v14 (ix2 row r))
      (∑ d : Fin 4096, @HMul.hMul EReal EReal EReal _ (V m c main_v1 (ix2 row d))
          (FloatOps.sitofp (F := Ideal) .f32 ((m ((c : Thread nD τ).loc main_arg3) : S16x4096.Idx → BitVec 32) (ix2 r d))
              * (m ((c : Thread nD τ).loc main_arg5) : S_.Idx → EReal) ix0)) := by
  refine (congrFun (v14_eq m c) (ix2 row r)).trans ?_
  generalize (V m c main_v1 : FVec Ideal S16384x4096 .bf16) = X
  rw [truncf_apply, dot_apply]
  show @Eq EReal (∑ k : Fin 4096, _) (∑ d : Fin 4096, _)
  exact Finset.sum_congr rfl fun d _ => congrArg (@HMul.hMul EReal EReal EReal _ (X (ix2 row d))) (a_apply m c d r)

end Kernel

/-! ## The reference's result at an index -/

section Reference

open Cert.ReferenceIdeal Cert.ReferenceIdeal.Read

variable (x0 : (⟨S4x4096x4096, .f32⟩ : BufTy).Contents (Elt Ideal)) (x1 : (⟨S4096x4096, .f32⟩ : BufTy).Contents (Elt Ideal))
  (x2 : (⟨S4096, .f32⟩ : BufTy).Contents (Elt Ideal)) (x3 : (⟨S16x4096, .i32⟩ : BufTy).Contents (Elt Ideal))
  (x4 : (⟨S4096x16, .i32⟩ : BufTy).Contents (Elt Ideal)) (x5 x6 : (⟨S_, .f32⟩ : BufTy).Contents (Elt Ideal))

/-- The base product: row `s` of batch `b` of the activations against row `o` of the weight. -/
theorem ref_base (b : Fin 4) (s o : Fin 4096) :
    val_main_v0 (F := Ideal) x0 x1 (ix3 b s o) = ∑ d : Fin 4096, x0 (ix3 b s d) * x1 (ix2 o d) := by
  rw [val_main_v0_apply]
  refine Finset.sum_congr rfl fun d _ => ?_
  have hl : lidx_main_v0 (ix3 b s o) d = ix3 b s d := funext fun a => by
    match a with | ⟨0, _⟩ => rfl | ⟨1, _⟩ => rfl | ⟨2, _⟩ => rfl
  have hr : ridx_main_v0 (ix3 b s o) d = ix2 o d := funext fun a => by
    match a with | ⟨0, _⟩ => rfl | ⟨1, _⟩ => rfl
  rw [hl, hr]

/-- The bias, broadcast along the batch and the rows. -/
theorem ref_bias (b : Fin 4) (s o : Fin 4096) :
    val_main_v2 (F := Ideal) x2 (ix3 b s o) = x2 (ix1 o) := by
  rw [val_main_v2_apply, val_main_v1_apply]
  refine congrArg x2 (funext fun a => ?_)
  match a with | ⟨0, _⟩ => rfl

/-- The low-rank product: the activations against the first factor (converted and scaled), then against the second. -/
theorem ref_lowrank (b : Fin 4) (s o : Fin 4096) :
    val_main_v11 (F := Ideal) x0 x3 x4 x5 x6 (ix3 b s o)
      = ∑ r : Fin 16, (∑ d : Fin 4096, x0 (ix3 b s d) * (FloatOps.sitofp (F := Ideal) .f32 (x3 (ix2 r d)) * x5 ix0))
          * (FloatOps.sitofp (F := Ideal) .f32 (x4 (ix2 o r)) * x6 ix0) := by
  rw [val_main_v11_apply]
  refine Finset.sum_congr rfl fun r _ => ?_
  have hl : lidx_main_v11 (ix3 b s o) r = ix3 b s r := funext fun a => by
    match a with | ⟨0, _⟩ => rfl | ⟨1, _⟩ => rfl | ⟨2, _⟩ => rfl
  have hr : ridx_main_v11 (ix3 b s o) r = ix2 o r := funext fun a => by
    match a with | ⟨0, _⟩ => rfl | ⟨1, _⟩ => rfl
  rw [hl, hr, val_main_v10_apply, val_main_v9_apply, val_main_v7_apply, val_main_v8_apply]
  refine congrArg₂ (· * ·) (Finset.sum_congr rfl fun d _ => ?_) rfl
  have hl' : lidx_main_v10 (ix3 b s r) d = ix3 b s d := funext fun a => by
    match a with | ⟨0, _⟩ => rfl | ⟨1, _⟩ => rfl | ⟨2, _⟩ => rfl
  have hr' : ridx_main_v10 (ix3 b s r) d = ix2 r d := funext fun a => by
    match a with | ⟨0, _⟩ => rfl | ⟨1, _⟩ => rfl
  rw [hl', hr', val_main_v6_apply, val_main_v4_apply, val_main_v5_apply]
  rfl

/-- The reference's result: the base product plus the bias, plus twice the low-rank product. -/
theorem ref_apply (b : Fin 4) (s o : Fin 4096) :
    val_main_v14 (F := Ideal) x0 x1 x2 x3 x4 x5 x6 (ix3 b s o)
      = (∑ d : Fin 4096, x0 (ix3 b s d) * x1 (ix2 o d) + x2 (ix1 o))
        + (∑ r : Fin 16, (∑ d : Fin 4096, x0 (ix3 b s d) * (FloatOps.sitofp (F := Ideal) .f32 (x3 (ix2 r d)) * x5 ix0))
            * (FloatOps.sitofp (F := Ideal) .f32 (x4 (ix2 o r)) * x6 ix0)) * Cert.LoraSpec.two := by
  rw [val_main_v14_apply, val_main_v3_apply, val_main_v13_apply, ref_base, ref_bias, ref_lowrank, val_main_v12_apply,
    val_main_cst_apply]
  rfl

end Reference

end Cert.LoraHost

end
-- ==== Proof.Bridge.lean ====
/-
  The two results are one function of the arguments.

  Unfolded to the arguments, the kernel's entry (b, s, o) is
      (∑ d, x b s d * W o d  +  (∑ r, (∑ d, x b s d * (qa r d * sa)) * (qb o r * sb)) * 2)  +  bias o
  — flattening the activations sends row 4096 b + s to row (b, s), transposing the weights swaps their two
  coordinates, the rank-16 activations are the host's product of the same rows with the dequantized factor, a change
  of float format does nothing — and the reference's is
      (∑ d, x b s d * W o d  +  bias o)  +  (∑ r, (∑ d, x b s d * (qa r d * sa)) * (qb o r * sb)) * 2 .
  The same three extended reals are added in two orders: `a + b + c = a + c + b`, which holds for every extended real,
  infinite or not.
-/
import proofs.«158143_j16234976379141_2_alg».proof.Proof.Final
import proofs.«158143_j16234976379141_2_alg».proof.Proof.HostSide

set_option maxRecDepth 16384

noncomputable section

namespace Cert.LoraBridge

open Idealize.ShloMosaic Idealize.ShloMosaic.TcCoe Idealize.SL.Sem Idealize.ShloMosaic.ValueIdx
open Cert.LoraSpec

section Generic

variable (X : (⟨2, ![16384, 4096]⟩ : Shape).Idx → EReal) (Wt : (⟨2, ![4096, 4096]⟩ : Shape).Idx → EReal)
  (XA : (⟨2, ![16384, 16]⟩ : Shape).Idx → EReal) (Bt : (⟨2, ![16, 4096]⟩ : Shape).Idx → EReal)
  (B2 : (⟨2, ![1, 4096]⟩ : Shape).Idx → EReal)

/-- `kout` at row `R`, column `O`, with the coordinates in place. -/
theorem kout_ix2 (R : Fin 16384) (O : Fin 4096) :
    kout X Wt XA Bt B2 (ix2 R O)
      = (part X Wt 4096 R O + (∑ r : Fin 16, XA (ix2 R r) * Bt (ix2 r O)) * two) + B2 (ix2 0 O) := rfl

end Generic

open Cert.KernelIdeal Cert.KernelIdeal.Gen Cert.LoraFinal Cert.LoraHost

variable (m : (ℓ : Loc nD τ sig) → Buf (Elt Ideal) ℓ) (c : Dev nD)

/-- Row `4096 b + s` of the flattened activations is row `(b, s)` of the argument. -/
theorem x_row (b : Fin 4) (s d : Fin 4096) :
    (V m c main_v1 : S16384x4096.Idx → EReal) (ix2 ⟨b.val * 4096 + s.val, by have := b.isLt; have := s.isLt; omega⟩ d)
      = (m ((c : Thread nD τ).loc main_arg0) : S4x4096x4096.Idx → EReal) (ix3 b s d) := by
  refine (v1_apply m c _ d).trans ?_
  refine congrArg (m ((c : Thread nD τ).loc main_arg0) : S4x4096x4096.Idx → EReal) (funext fun a => Fin.ext ?_)
  match a with
  | ⟨0, _⟩ => show (b.val * 4096 + s.val) / 4096 = b.val; have := s.isLt; omega
  | ⟨1, _⟩ => show (b.val * 4096 + s.val) % 4096 = s.val; have := s.isLt; omega
  | ⟨2, _⟩ => rfl

/-- Entry by entry the kernel's result is the reference's function of the arguments. -/
theorem result_entry (b : Fin 4) (s o : Fin 4096) :
    res3d m c (ix3 b s o)
      = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s o) := by
  refine (res3d_apply m c b s o).trans ?_
  refine (kout_ix2 (V m c main_v1) (V m c main_v3) (V m c main_v14) (V m c main_v15) (V m c main_v16)
    ⟨b.val * 4096 + s.val, by have := b.isLt; have := s.isLt; omega⟩ o).trans ?_
  rw [part_full, v16_apply, ref_apply]
  simp only [x_row m c b s, v3_apply m c, v14_apply m c, v15_apply m c]
  show @Eq EReal _ _
  exact add_right_comm (G := EReal) _ _ _

/-- The kernel's result array is the reference's function of the arguments. -/
theorem result_eq :
    res3d m c = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  rw [eq_ix3 i]
  exact result_entry m c (i 0) (i 1) (i 2)

end Cert.LoraBridge

end
-- ==== Proof.lean ====
/-
  The kernel computes a linear layer with a dequantized rank-16 update: for activations `x` [4, 4096, 4096], weights `W`,
  a bias, integer factors `qa`, `qb` with scales `sa`, `sb`,
      out b s o = ∑ d, x b s d * W o d + bias o + 2 * ∑ r, (∑ d, x b s d * (qa r d * sa)) * (qb o r * sb).
  The kernel flattens the activations, tiles the output 16 × 4, walks the contraction axis in four blocks per tile with an
  accumulator it clears at the first block, and on the last block adds the low-rank term and the bias; the reference forms
  the three products whole. Over the extended reals the two differ only in how the sums are grouped and in the order of the
  last two additions, so no hypothesis on the inputs is used.

  Modules: Spec (the arithmetic, program-free), Pieces (what one visit of a grid point stores), Payloads (those stored values
  entry by entry), Blocks (which array entries a block holds), Accum (the accumulator across the grid, by induction on the
  point), Final (tiles to the whole array, the reshape after the region, the run), HostSide (the host operations before the
  region and the reference read at an entry), Bridge (the two results are one function).
-/
import proofs.«158143_j16234976379141_2_alg».proof.Defs
import proofs.«158143_j16234976379141_2_alg».proof.Proof.Gen.Kernel
import proofs.«158143_j16234976379141_2_alg».proof.Proof.Gen.Kernel.Skeleton
import proofs.«158143_j16234976379141_2_alg».proof.Proof.Gen.Kernel.Launch
import proofs.«158143_j16234976379141_2_alg».proof.Proof.Gen.Kernel.Points
import proofs.«158143_j16234976379141_2_alg».proof.Proof.Gen.Kernel.Frame
import proofs.«158143_j16234976379141_2_alg».proof.Proof.Gen.KernelIdeal
import proofs.«158143_j16234976379141_2_alg».proof.Proof.Gen.KernelIdeal.Skeleton
import proofs.«158143_j16234976379141_2_alg».proof.Proof.Gen.KernelIdeal.Launch
import proofs.«158143_j16234976379141_2_alg».proof.Proof.Gen.KernelIdeal.Points
import proofs.«158143_j16234976379141_2_alg».proof.Proof.Gen.KernelIdeal.Frame
import proofs.«158143_j16234976379141_2_alg».proof.Proof.Gen.ReferenceIdeal
import proofs.«158143_j16234976379141_2_alg».proof.Proof.Gen.ReferenceIdeal.Run
import proofs.«158143_j16234976379141_2_alg».proof.Proof.Gen.ReferenceIdeal.Read
import proofs.«158143_j16234976379141_2_alg».proof.Proof.Gen.Pre_finite_inputs
import proofs.«158143_j16234976379141_2_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the same array: the kernel's run leaves its tiled, block-accumulated result, the reference's run
    its three whole products, and entry by entry they are the same extended real of arguments that agree. -/
theorem algebraic : Cert.algebraic_KernelIdeal_ReferenceIdeal := by
  intro m ρ m' ρ' _ hagree
  refine ⟨fun c => Cert.LoraFinal.res3d m c, Cert.LoraFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v14_eq, a0, a1, a2, a3, a4, a5, a6]
  exact (Cert.LoraBridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
